-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x46 : Shape := ⟨2, ![2000000, 46]⟩
abbrev S2000000 : Shape := ⟨1, ![2000000]⟩
abbrev S_ : Shape := ⟨0, ![]⟩

class Facts : Prop where
  bcast_S_S2000000x46 : S_.BroadcastsInDim S2000000x46 (![] : Fin 0 → Fin S2000000x46.rank)
  reducesTo_S2000000x46_S_d0_1 : S2000000x46.ReducesTo [0, 1] S_
  h_S_ : 0 < S_.numel

variable [Facts]

def fn {F : FTy → Type} [FloatOps F] (main_arg0 : FVec F S2000000x46 .f32) (main_arg1 : IVec S2000000 32) : IVec S_ 1 :=
  let main_v0 : FVec F S2000000x46 .f32 := Host.absf main_arg0
  let main_cst : FVec F S_ .f32 := constant S_ .f32 0x7F800000#32
  let main_v1 : FVec F S2000000x46 .f32 := broadcastInDim S2000000x46 ![] bcast_S_S2000000x46 main_cst
  let main_v2 : IVec S2000000x46 1 := cmpf .olt main_v0 main_v1
  let main_c : IVec S_ 1 := constantI S_ 1 1#1
  let main_v3 : IVec S_ 1 := (fun x v => Host.reduce IntOp.andi x v reducesTo_S2000000x46_S_d0_1 h_S_) main_v2 main_c
  main_v3
-- ==== Kernel.lean ====
abbrev S2000000x46 : Shape := ⟨2, ![2000000, 46]⟩
abbrev S2000000 : Shape := ⟨1, ![2000000]⟩
abbrev S2000000x1 : Shape := ⟨2, ![2000000, 1]⟩
abbrev S46 : Shape := ⟨1, ![46]⟩
abbrev S20000x46 : Shape := ⟨2, ![20000, 46]⟩
abbrev S20000x1 : Shape := ⟨2, ![20000, 1]⟩
abbrev S_ : Shape := ⟨0, ![]⟩

abbrev nBuf : Space → Nat
  | .hbm => 41
  | .vmem => 7
  | .smem => 0
  | _ => 0

abbrev bufTy : (tb : Table) → Fin (tcTables nBuf tb) → BufTy
  | .hbm, ⟨0, _⟩ => ⟨S2000000x46, .f32⟩
  | .hbm, ⟨1, _⟩ => ⟨S2000000, .i32⟩
  | .hbm, ⟨2, _⟩ => ⟨S2000000x1, .i32⟩
  | .hbm, ⟨3, _⟩ => ⟨S46, .f32⟩
  | .hbm, ⟨4, _⟩ => ⟨S46, .f32⟩
  | .hbm, ⟨5, _⟩ => ⟨S46, .f32⟩
  | .hbm, ⟨6, _⟩ => ⟨S46, .f32⟩
  | .hbm, ⟨7, _⟩ => ⟨S46, .f32⟩
  | .hbm, ⟨8, _⟩ => ⟨S46, .f32⟩
  | .hbm, ⟨9, _⟩ => ⟨S_, .f32⟩
  | .hbm, ⟨10, _⟩ => ⟨S46, .f32⟩
  | .hbm, ⟨11, _⟩ => ⟨S46, .f32⟩
  | .hbm, ⟨12, _⟩ => ⟨S46, .f32⟩
  | .hbm, ⟨13, _⟩ => ⟨S46, .f32⟩
  | .hbm, ⟨14, _⟩ => ⟨S_, .f32⟩
  | .hbm, ⟨15, _⟩ => ⟨S46, .f32⟩
  | .hbm, ⟨16, _⟩ => ⟨S46, .f32⟩
  | .hbm, ⟨17, _⟩ => ⟨S46, .f32⟩
  | .hbm, ⟨18, _⟩ => ⟨S_, .f32⟩
  | .hbm, ⟨19, _⟩ => ⟨S46, .f32⟩
  | .hbm, ⟨20, _⟩ => ⟨S46, .f32⟩
  | .hbm, ⟨21, _⟩ => ⟨S46, .f32⟩
  | .hbm, ⟨22, _⟩ => ⟨S46, .f32⟩
  | .hbm, ⟨23, _⟩ => ⟨S_, .f32⟩
  | .hbm, ⟨24, _⟩ => ⟨S46, .f32⟩
  | .hbm, ⟨25, _⟩ => ⟨S46, .f32⟩
  | .hbm, ⟨26, _⟩ => ⟨S46, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S46, .f32⟩
  | .hbm, ⟨31, _⟩ => ⟨S46, .f32⟩
  | .hbm, ⟨32, _⟩ => ⟨S_, .f32⟩
  | .hbm, ⟨33, _⟩ => ⟨S46, .f32⟩
  | .hbm, ⟨34, _⟩ => ⟨S46, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S20000x46, .f32⟩
  | .local _ .vmem, ⟨1, _⟩ => ⟨S20000x46, .f32⟩
  | .local _ .vmem, ⟨2, _⟩ => ⟨S20000x1, .i32⟩
  | .local _ .vmem, ⟨3, _⟩ => ⟨S20000x1, .i32⟩
  | .local _ .vmem, ⟨4, _⟩ => ⟨S46, .f32⟩
  | .local _ .vmem, ⟨5, _⟩ => ⟨S46, .f32⟩
  | .local _ .vmem, ⟨6, _⟩ => ⟨S46, .f32⟩
  | _, _ => ⟨S2000000x46, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S20000x46 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S46 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S46 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S46 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S2000000_S2000000x1 : S2000000.ShapeCasts S2000000x1
  inb_S46_S46_0 : ∀ a, (![0] : Fin 1 → Nat) a + S46.size a ≤ S46.size a
  h_S46 : 0 < S46.numel
  inb_S20000x46_S20000x46_0_0 : ∀ a, (![0, 0] : Fin 2 → Nat) a + S20000x46.size a ≤ S20000x46.size a
  h_S20000x46 : 0 < S20000x46.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  iota_S20000x46_d1_w32 : S20000x46.Iotas .tc 32 [1]
  broadcasts_S20000x1_S20000x46 : S20000x1.Broadcasts S20000x46
  natLt_1_32 : 1 < 32
  shapeCasts_S46_S46 : S46.ShapeCasts S46
  reduces_S20000x46_S46 : S20000x46.Reduces [0] S46
  bcast_S_S46 : S_.BroadcastsInDim S46 (![] : Fin 0 → Fin S46.rank)
  reducesTo_S46_S_d0 : S46.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x46.size a ≤ S2000000x46.size a
  hwx0_0 : ∀ i : grid0.Coords, EltTy.bits .f32 = 32 ∨ (Rect.block (s := S2000000x46) S20000x46.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S2000000x1.size a
  hwx0_1 : ∀ i : grid0.Coords, EltTy.bits .i32 = 32 ∨ (Rect.block (s := S2000000x1) S20000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S46.size a ≤ S46.size a
  hwx0_2 : ∀ i : grid0.Coords, EltTy.bits .f32 = 32 ∨ (Rect.block (s := S46) S46.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S46.size a ≤ S46.size a
  hwx0_3 : ∀ i : grid0.Coords, EltTy.bits .f32 = 32 ∨ (Rect.block (s := S46) S46.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S46.size a ≤ S46.size a
  hwx0_4 : ∀ i : grid0.Coords, EltTy.bits .f32 = 32 ∨ (Rect.block (s := S46) S46.size (cc0_transform_4 i) (hinb0_4 i)).WholeWords (EltTy.packing .f32)

variable [Facts₀]

abbrev win0_0 : Pipeline.Window sig grid0 :=
  Pipeline.Window.ofSpec (Memref.whole main_arg0) S20000x46.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S46.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S46.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S46.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x46 : Shape := ⟨2, ![2000000, 46]⟩
abbrev S2000000 : Shape := ⟨1, ![2000000]⟩
abbrev S46 : Shape := ⟨1, ![46]⟩
abbrev S2000000x1 : Shape := ⟨2, ![2000000, 1]⟩
abbrev S1x46 : Shape := ⟨2, ![1, 46]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2000000x46, .f32⟩
  | .hbm, ⟨1, _⟩ => ⟨S2000000, .i32⟩
  | .hbm, ⟨2, _⟩ => ⟨S46, .i32⟩
  | .hbm, ⟨3, _⟩ => ⟨S2000000x1, .i32⟩
  | .hbm, ⟨4, _⟩ => ⟨S1x46, .i32⟩
  | .hbm, ⟨5, _⟩ => ⟨S2000000x46, .i32⟩
  | .hbm, ⟨6, _⟩ => ⟨S2000000x46, .i32⟩
  | .hbm, ⟨7, _⟩ => ⟨S2000000x46, .i1⟩
  | .hbm, ⟨8, _⟩ => ⟨S2000000x46, .f32⟩
  | .hbm, ⟨9, _⟩ => ⟨S_, .f32⟩
  | .hbm, ⟨10, _⟩ => ⟨S46, .f32⟩
  | .hbm, ⟨11, _⟩ => ⟨S2000000x46, .f32⟩
  | .hbm, ⟨12, _⟩ => ⟨S_, .f32⟩
  | .hbm, ⟨13, _⟩ => ⟨S46, .f32⟩
  | .hbm, ⟨14, _⟩ => ⟨S_, .f32⟩
  | .hbm, ⟨15, _⟩ => ⟨S46, .f32⟩
  | .hbm, ⟨16, _⟩ => ⟨S46, .f32⟩
  | .hbm, ⟨17, _⟩ => ⟨S46, .f32⟩
  | .hbm, ⟨18, _⟩ => ⟨S46, .f32⟩
  | .hbm, ⟨19, _⟩ => ⟨S_, .f32⟩
  | .hbm, ⟨20, _⟩ => ⟨S46, .f32⟩
  | .hbm, ⟨21, _⟩ => ⟨S46, .f32⟩
  | .hbm, ⟨22, _⟩ => ⟨S46, .f32⟩
  | .hbm, ⟨23, _⟩ => ⟨S46, .f32⟩
  | .hbm, ⟨24, _⟩ => ⟨S_, .f32⟩
  | .hbm, ⟨25, _⟩ => ⟨S46, .f32⟩
  | .hbm, ⟨26, _⟩ => ⟨S46, .f32⟩
  | .hbm, ⟨27, _⟩ => ⟨S46, .f32⟩
  | .hbm, ⟨28, _⟩ => ⟨S_, .f32⟩
  | .hbm, ⟨29, _⟩ => ⟨S46, .f32⟩
  | .hbm, ⟨30, _⟩ => ⟨S46, .f32⟩
  | .hbm, ⟨31, _⟩ => ⟨S46, .f32⟩
  | .hbm, ⟨32, _⟩ => ⟨S46, .f32⟩
  | .hbm, ⟨33, _⟩ => ⟨S_, .f32⟩
  | .hbm, ⟨34, _⟩ => ⟨S46, .f32⟩
  | .hbm, ⟨35, _⟩ => ⟨S46, .f32⟩
  | .hbm, ⟨36, _⟩ => ⟨S46, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S46, .f32⟩
  | .hbm, ⟨41, _⟩ => ⟨S46, .f32⟩
  | .hbm, ⟨42, _⟩ => ⟨S_, .f32⟩
  | .hbm, ⟨43, _⟩ => ⟨S46, .f32⟩
  | .hbm, ⟨44, _⟩ => ⟨S46, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S2000000x46, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_cst_7 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S46_S1x46_1 : S46.BroadcastsInDim S1x46 (![1] : Fin 1 → Fin S1x46.rank)
  bcast_S2000000x1_S2000000x46_0_1 : S2000000x1.BroadcastsInDim S2000000x46 (![0, 1] : Fin 2 → Fin S2000000x46.rank)
  bcast_S1x46_S2000000x46_0_1 : S1x46.BroadcastsInDim S2000000x46 (![0, 1] : Fin 2 → Fin S2000000x46.rank)
  reducesTo_S2000000x46_S46_d0 : S2000000x46.ReducesTo [0] S46
  h_S_ : 0 < S_.numel
  bcast_S_S46 : S_.BroadcastsInDim S46 (![] : Fin 0 → Fin S46.rank)
  reducesTo_S46_S_d0 : S46.ReducesTo [0] S_

variable [Facts₀]

class Facts : Prop extends Facts₀ where

variable [Facts]
-- ==== Proof.BodyLeaves.lean ====
/-
  What one run of the kernel body leaves in the three running sums, as values.

  The body keeps three vectors of 46 numbers: the column sums, the hit sums and the counts. At the first grid point it
  stores zero into each, reads that zero back, and stores zero plus the block's contribution. At every later point it reads
  what the point before left and stores that plus the block's contribution. The contribution of a block is, class by
  class, the sum down the block's 20,000 rows of the prediction, of the one-hot times the prediction, and of the one-hot.

  Each statement below says: the contents a case leaves in one of the three vectors is the stored value of that vector,
  computed from the block of predictions `x0`, the block of labels `x1`, and either zero (first point) or the contents
  carried from the point before (later points). A load of a whole buffer reads the buffer's contents, and a read-back of a
  store that covered the whole vector reads the stored value.
-/
import proofs.«134390_j83081847374037_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyLeaves

open Cert.KernelIdeal Cert.KernelIdeal.Gen

variable {F : FTy → Type} [FloatOps F]

/-- The offset of a whole vector of 46 numbers is zero, -/
theorem hz1 : (![0] : Fin 1 → Nat) = fun _ => 0 := funext fun a => by fin_cases a; rfl
/-- and so is the offset of a whole block of rows. -/
theorem hz2 : (![0, 0] : Fin 2 → Nat) = fun _ => 0 := funext fun a => by fin_cases a <;> rfl

/-! ## A later point: the carried contents plus the block's contribution -/

/-- The column sums after a later point. -/
theorem left_B_2 (c : Dev nD) (i : grid0.Coords) (a1 : Memref sig .tc .vmem S20000x46 .f32) (h1 : a1.IsWhole) (a2 : Memref sig .tc .vmem S20000x1 .i32) (h2 : a2.IsWhole) (a3 : Memref sig .tc .vmem S46 .f32) (h3 : a3.IsWhole) (a4 : Memref sig .tc .vmem S46 .f32) (h4 : a4.IsWhole) (a5 : Memref sig .tc .vmem S46 .f32) (h5 : a5.IsWhole) (hc : ¬cond0_0 i)
    (x0 : Vec F S20000x46 .f32) (x1 : Vec F S20000x1 .i32) (xo2 xo3 xo4 : Vec F S46 .f32) :
    out0_B_2 c i a1 h1 a2 h2 a3 h3 a4 h4 a5 h5 hc x0 x1 xo2 xo3 xo4 = k0_pay5 x0 xo2 := by
  unfold out0_B_2
  rw [View.read_writes_eq_canon _ _ _ (cover0_B_2 c i a1 h1 a2 h2 a3 h3 a4 h4 a5 h5 hc x0 x1 xo2 xo3 xo4)]
  unfold kernelRun0_B
  dsimp only
  rw [View.canon_unit_zero hz1]
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1]

/-- The hit sums after a later point. -/
theorem left_B_3 (c : Dev nD) (i : grid0.Coords) (a1 : Memref sig .tc .vmem S20000x46 .f32) (h1 : a1.IsWhole) (a2 : Memref sig .tc .vmem S20000x1 .i32) (h2 : a2.IsWhole) (a3 : Memref sig .tc .vmem S46 .f32) (h3 : a3.IsWhole) (a4 : Memref sig .tc .vmem S46 .f32) (h4 : a4.IsWhole) (a5 : Memref sig .tc .vmem S46 .f32) (h5 : a5.IsWhole) (hc : ¬cond0_0 i)
    (x0 : Vec F S20000x46 .f32) (x1 : Vec F S20000x1 .i32) (xo2 xo3 xo4 : Vec F S46 .f32) :
    out0_B_3 c i a1 h1 a2 h2 a3 h3 a4 h4 a5 h5 hc x0 x1 xo2 xo3 xo4 = k0_pay7 x0 x1 xo3 := by
  unfold out0_B_3
  rw [View.read_writes_eq_canon _ _ _ (cover0_B_3 c i a1 h1 a2 h2 a3 h3 a4 h4 a5 h5 hc x0 x1 xo2 xo3 xo4)]
  unfold kernelRun0_B
  dsimp only
  rw [View.canon_unit_zero hz1]
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1]

/-- The counts after a later point. -/
theorem left_B_4 (c : Dev nD) (i : grid0.Coords) (a1 : Memref sig .tc .vmem S20000x46 .f32) (h1 : a1.IsWhole) (a2 : Memref sig .tc .vmem S20000x1 .i32) (h2 : a2.IsWhole) (a3 : Memref sig .tc .vmem S46 .f32) (h3 : a3.IsWhole) (a4 : Memref sig .tc .vmem S46 .f32) (h4 : a4.IsWhole) (a5 : Memref sig .tc .vmem S46 .f32) (h5 : a5.IsWhole) (hc : ¬cond0_0 i)
    (x0 : Vec F S20000x46 .f32) (x1 : Vec F S20000x1 .i32) (xo2 xo3 xo4 : Vec F S46 .f32) :
    out0_B_4 c i a1 h1 a2 h2 a3 h3 a4 h4 a5 h5 hc x0 x1 xo2 xo3 xo4 = k0_pay6 x1 xo4 := by
  unfold out0_B_4
  rw [View.read_writes_eq_canon _ _ _ (cover0_B_4 c i a1 h1 a2 h2 a3 h3 a4 h4 a5 h5 hc x0 x1 xo2 xo3 xo4)]
  unfold kernelRun0_B
  dsimp only
  rw [View.canon_unit_zero hz1]
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1]

/-! ## The first point: zero plus the block's contribution -/

/-- The column sums after the first point. -/
theorem left_A_2 (c : Dev nD) (i : grid0.Coords) (a1 : Memref sig .tc .vmem S20000x46 .f32) (h1 : a1.IsWhole) (a2 : Memref sig .tc .vmem S20000x1 .i32) (h2 : a2.IsWhole) (a3 : Memref sig .tc .vmem S46 .f32) (h3 : a3.IsWhole) (a4 : Memref sig .tc .vmem S46 .f32) (h4 : a4.IsWhole) (a5 : Memref sig .tc .vmem S46 .f32) (h5 : a5.IsWhole) (hc : cond0_0 i)
    (x0 : Vec F S20000x46 .f32) (x1 : Vec F S20000x1 .i32) :
    out0_A_2 c i a1 h1 a2 h2 a3 h3 a4 h4 a5 h5 hc x0 x1 = k0_pay5 x0 k0_pay1 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S46) hz1, View.readCov_unit_zero (S := S46) _ hz1]
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1]

/-- The hit sums after the first point. -/
theorem left_A_3 (c : Dev nD) (i : grid0.Coords) (a1 : Memref sig .tc .vmem S20000x46 .f32) (h1 : a1.IsWhole) (a2 : Memref sig .tc .vmem S20000x1 .i32) (h2 : a2.IsWhole) (a3 : Memref sig .tc .vmem S46 .f32) (h3 : a3.IsWhole) (a4 : Memref sig .tc .vmem S46 .f32) (h4 : a4.IsWhole) (a5 : Memref sig .tc .vmem S46 .f32) (h5 : a5.IsWhole) (hc : cond0_0 i)
    (x0 : Vec F S20000x46 .f32) (x1 : Vec F S20000x1 .i32) :
    out0_A_3 c i a1 h1 a2 h2 a3 h3 a4 h4 a5 h5 hc x0 x1 = k0_pay7 x0 x1 k0_pay2 := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S46) hz1, View.readCov_unit_zero (S := S46) _ hz1]
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1]

/-- The counts after the first point. -/
theorem left_A_4 (c : Dev nD) (i : grid0.Coords) (a1 : Memref sig .tc .vmem S20000x46 .f32) (h1 : a1.IsWhole) (a2 : Memref sig .tc .vmem S20000x1 .i32) (h2 : a2.IsWhole) (a3 : Memref sig .tc .vmem S46 .f32) (h3 : a3.IsWhole) (a4 : Memref sig .tc .vmem S46 .f32) (h4 : a4.IsWhole) (a5 : Memref sig .tc .vmem S46 .f32) (h5 : a5.IsWhole) (hc : cond0_0 i)
    (x0 : Vec F S20000x46 .f32) (x1 : Vec F S20000x1 .i32) :
    out0_A_4 c i a1 h1 a2 h2 a3 h3 a4 h4 a5 h5 hc x0 x1 = k0_pay6 x1 k0_pay3 := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S46) hz1, View.readCov_unit_zero (S := S46) _ hz1]
  simp only [View.readAt_eq_ld, h1.read_unread, h2.read_unread, h3.read_unread, h4.read_unread, h5.read_unread,
    View.ld_unit_zero (S := S20000x46) hz2, View.ld_unit_zero (S := S20000x1) hz2, View.ld_unit_zero (S := S46) hz1]

end Cert.KernelIdeal.BodyLeaves

end
-- ==== Proof.ClassSums.lean ====
/-
  The three per-class sums of the F1 loss, and the one law that joins a sum taken block by block to the sum taken at once.

  There are 2,000,000 rows and 46 classes. For a class `c`, with `X n c` the prediction of row `n` for class `c` and
  `lab n` the label of row `n`:
    the column sum            ∑ n, X n c
    the hit sum               ∑ n, [lab n = c] · X n c
    the count                 ∑ n, [lab n = c]
  where `[lab n = c]` is the bit of the equality test read as the number 0 or 1.

  The rows are cut into 100 blocks of 20,000: row `r` of block `t` is row `20000 t + r`. Summing each block and then the
  block sums gives the sum over all rows. This only moves brackets and reorders terms, so it holds in every additive
  commutative monoid; the extended reals are one, and no summand has to be finite.
-/
import Mathlib.Algebra.BigOperators.Fin
import Idealize.ShloMosaic.PureOps.Ideal
import Idealize.ShloMosaic.Lib.ValueIdx

noncomputable section

namespace Cert.ClassSums

open Idealize.ShloMosaic Idealize.ShloMosaic.ValueIdx

/-! ## Rows and blocks -/

/-- Row `r` of block `t` is row `20000 t + r` of the whole array. -/
def row (t : Fin 100) (r : Fin 20000) : Fin 2000000 :=
  ⟨20000 * t.val + r.val, by have := t.isLt; have := r.isLt; omega⟩

theorem row_val (t : Fin 100) (r : Fin 20000) : (row t r).val = 20000 * t.val + r.val := rfl

/-- Every row is row `n % 20000` of block `n / 20000`, and of no other block. -/
def rowEquiv : Fin 100 × Fin 20000 ≃ Fin 2000000 where
  toFun p := row p.1 p.2
  invFun n := (⟨n.val / 20000, by have := n.isLt; omega⟩, ⟨n.val % 20000, by omega⟩)
  left_inv p := by
    obtain ⟨t, r⟩ := p
    have := t.isLt
    have := r.isLt
    apply Prod.ext <;> apply Fin.ext <;> simp only [row_val] <;> omega
  right_inv n := by
    apply Fin.ext
    simp only [row_val]
    omega

variable {M : Type*} [AddCommMonoid M]

/-- The sum over the blocks of the sums over a block's rows is the sum over all rows. -/
theorem sum_rows (f : Fin 2000000 → M) :
    ∑ t : Fin 100, ∑ r : Fin 20000, f (row t r) = ∑ n : Fin 2000000, f n := by
  rw [← Fintype.sum_prod_type' (fun t r => f (row t r))]
  exact Fintype.sum_equiv rowEquiv _ _ (fun _ => rfl)

/-- The sum of `f` over the rows of block `t` (zero past the last block). -/
def blockSum (f : Fin 2000000 → M) (t : ℕ) : M :=
  if h : t < 100 then ∑ r : Fin 20000, f (row ⟨t, h⟩ r) else 0

theorem blockSum_of_lt (f : Fin 2000000 → M) (t : ℕ) (h : t < 100) :
    blockSum f t = ∑ r : Fin 20000, f (row ⟨t, h⟩ r) := dif_pos h

/-- The running sum of the first `n + 1` blocks. -/
def firstBlocks (f : Fin 2000000 → M) (n : ℕ) : M := ∑ t ∈ Finset.range (n + 1), blockSum f t

theorem firstBlocks_zero (f : Fin 2000000 → M) : firstBlocks f 0 = blockSum f 0 := by
  unfold firstBlocks
  rw [Finset.sum_range_one]

theorem firstBlocks_succ (f : Fin 2000000 → M) (n : ℕ) :
    firstBlocks f (n + 1) = firstBlocks f n + blockSum f (n + 1) := by
  unfold firstBlocks
  rw [Finset.sum_range_succ]

/-- All 100 blocks make up the whole sum. -/
theorem firstBlocks_last (f : Fin 2000000 → M) : firstBlocks f 99 = ∑ n : Fin 2000000, f n := by
  unfold firstBlocks
  rw [← Fin.sum_univ_eq_sum_range (fun t => blockSum f t) (99 + 1), ← sum_rows f]
  exact Finset.sum_congr rfl (fun t _ => blockSum_of_lt f t.val t.isLt)

/-! ## The summands and the sums -/

/-- `[l = c]`: the bit of the signed 32-bit equality test of a label against a class number, as the number 0 or 1. -/
def hot (l : BitVec 32) (c : Fin 46) : EReal :=
  (((IntOp.cmpi .eq l (BitVec.ofNat 32 c.val)).toNat : ℝ) : EReal)

/-- The predictions: one extended real per row and class. -/
abbrev Preds : Type := (⟨2, ![2000000, 46]⟩ : Shape).Idx → EReal

/-- The summand of the column sum at row `n`. -/
def colTerm (X : Preds) (c : Fin 46) (n : Fin 2000000) : EReal := X (ix2 n c)
/-- The summand of the hit sum at row `n`. -/
def hitTerm (X : Preds) (lab : Fin 2000000 → BitVec 32) (c : Fin 46) (n : Fin 2000000) : EReal :=
  hot (lab n) c * X (ix2 n c)
/-- The summand of the count at row `n`. -/
def cntTerm (lab : Fin 2000000 → BitVec 32) (c : Fin 46) (n : Fin 2000000) : EReal := hot (lab n) c

/-- The column sum of class `c`. -/
def colSum (X : Preds) (c : Fin 46) : EReal := ∑ n : Fin 2000000, colTerm X c n
/-- The hit sum of class `c`: the predictions for `c` summed over the rows labelled `c`. -/
def hitSum (X : Preds) (lab : Fin 2000000 → BitVec 32) (c : Fin 46) : EReal := ∑ n : Fin 2000000, hitTerm X lab c n
/-- The count of class `c`: how many rows are labelled `c`. -/
def cntSum (lab : Fin 2000000 → BitVec 32) (c : Fin 46) : EReal := ∑ n : Fin 2000000, cntTerm lab c n

end Cert.ClassSums

end
-- ==== Proof.BlockReads.lean ====
/-
  What the two input windows hand the kernel body at a grid point, entry by entry.

  At point `t` the predictions' window holds rows `20000 t` to `20000 t + 19999` of the prediction array and the labels'
  window the same rows of the label column: entry `(r, k)` of a block is entry `(20000 t + r, k)` of its array, because a
  block's coordinate is always its block number times the block size plus the coordinate inside the block, and the block
  numbers of both windows at point `t` are `(t, 0)`.
  The label column is the label vector given one more axis of length one: its entry `(n, 0)` is label `n`.
-/
import proofs.«134390_j83081847374037_2_alg».proof.Proof.Gen.KernelIdeal.Frame.Runs
import proofs.«134390_j83081847374037_2_alg».proof.Proof.ClassSums
import Idealize.ShloMosaic.Lib.Pipeline.Value
import Idealize.ShloMosaic.Lib.StableHlo.Run
import Idealize.ShloMosaic.Lib.ValueIdx

noncomputable section

open Idealize.ShloMosaic Idealize.ShloMosaic.TcCoe Idealize.ShloMosaic.ValueIdx Idealize.SL.Sem

namespace Cert.KernelIdeal.BlockReads

open Cert.KernelIdeal Cert.KernelIdeal.Gen Cert.ClassSums

variable (m : (ℓ : Loc nD τ sig) → Buf (Elt Ideal) ℓ)

/-- The predictions' window is at block `(t, 0)` at point `t`, -/
theorem pred_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- and so is the labels' window. -/
theorem label_index : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `(r, k)` of the predictions' block at point `t` is entry `(20000 t + r, k)` of the prediction array. -/
theorem pred_block (c : Dev nD) (t : Fin cfg0.N) (ht : t.val < 100) (r : Fin 20000) (k : Fin 46) :
    (iblk m c 0 t : Vec Ideal S20000x46 .f32) (ix2 r k) = V m c main_arg0 (ix2 (row ⟨t.val, ht⟩ r) k) := by
  unfold iblk
  rw [View.read_apply]
  show V m c main_arg0 _ = V m c main_arg0 _
  refine congrArg (V m c main_arg0) (funext fun a => Fin.ext ?_)
  match a with
  | ⟨0, _⟩ =>
    show win0_0.index t (0 : Fin 2) * 20000 + 1 * r.val = 20000 * t.val + r.val
    rw [(pred_index t).1]; omega
  | ⟨1, _⟩ =>
    show win0_0.index t (1 : Fin 2) * 46 + 1 * k.val = k.val
    rw [(pred_index t).2]; omega

/-- Entry `(r, 0)` of the labels' block at point `t` is entry `(20000 t + r, 0)` of the label column. -/
theorem label_block (c : Dev nD) (t : Fin cfg0.N) (ht : t.val < 100) (r : Fin 20000) :
    (iblk m c 1 t : Vec Ideal S20000x1 .i32) (ix2 r (0 : Fin 1)) = V m c main_v0 (ix2 (row ⟨t.val, ht⟩ r) (0 : Fin 1)) := by
  unfold iblk
  rw [View.read_apply]
  show V m c main_v0 _ = V m c main_v0 _
  refine congrArg (V m c main_v0) (funext fun a => Fin.ext ?_)
  match a with
  | ⟨0, _⟩ =>
    show win0_1.index t (0 : Fin 2) * 20000 + 1 * r.val = 20000 * t.val + r.val
    rw [(label_index t).1]; omega
  | ⟨1, _⟩ =>
    show win0_1.index t (1 : Fin 2) * 1 + 1 * 0 = 0
    rw [(label_index t).2]

/-- The label column is the label vector with a trailing axis of length one. -/
theorem label_column (c : Dev nD) :
    V m c main_v0 = shapeCast S2000000x1 (m ((c : Thread nD τ).loc main_arg1)) shapeCasts_S2000000_S2000000x1 := by
  show StableHlo.after hostOps0 (fun b => m (c, b)) (Proc.devRef .tc main_v0) = _
  after_results
  rfl

/-- Entry `(n, 0)` of the label column is label `n`. -/
theorem label_at_row (c : Dev nD) (n : Fin 2000000) :
    V m c main_v0 (ix2 n (0 : Fin 1)) = m ((c : Thread nD τ).loc main_arg1) (ix1 n) := by
  rw [label_column]
  exact shapeCast_apply _ shapeCasts_S2000000_S2000000x1 (ix2 n (0 : Fin 1)) (ix1 n)
    (by rw [Shape.rowMajor_val_one, Shape.rowMajor_val_two]; show n.val = n.val * 1 + 0; omega)

end Cert.KernelIdeal.BlockReads

end
-- ==== Proof.BlockTerms.lean ====
/-
  One block's contribution to the three running sums, read at a class, over the extended reals.

  For a block of 20,000 rows with predictions `x0` and labels `x1`, and a class `c`:
    the one-hot at row `r` is the bit of the test "label of row `r` = `c`" read as 0 or 1 — the kernel widens the bit to
      32 bits with zeros and converts it as a signed integer, which is still 0 or 1;
    a sum down the rows of the block is the plain sum over `r`;
    each stored value is the old entry plus that sum: of `x0 r c`, of the one-hot, or of their product.
  The vector the first point starts from is zero at every class.
-/
import proofs.«134390_j83081847374037_2_alg».proof.Proof.Gen.KernelIdeal.Skeleton
import proofs.«134390_j83081847374037_2_alg».proof.Proof.ClassSums
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.BlockTerms

open Cert.KernelIdeal Cert.KernelIdeal.Gen Cert.ClassSums

/-! ## Zero -/

theorem zero_col (c : Fin 46) : k0_pay1 (F := Ideal) (ix1 c) = 0 := by
  show Ideal.ofBits .f32 0x00000000#32 = 0
  exact Ideal.ofBits_zero_f32
theorem zero_hit (c : Fin 46) : k0_pay2 (F := Ideal) (ix1 c) = 0 := by
  show Ideal.ofBits .f32 0x00000000#32 = 0
  exact Ideal.ofBits_zero_f32
theorem zero_cnt (c : Fin 46) : k0_pay3 (F := Ideal) (ix1 c) = 0 := by
  show Ideal.ofBits .f32 0x00000000#32 = 0
  exact Ideal.ofBits_zero_f32

/-! ## The one-hot -/

/-- A bit widened with zeros to 32 bits and read as a signed integer is the bit. -/
theorem widened_bit (v : BitVec 1) : (((v.setWidth 32).toInt : ℝ) : EReal) = ((v.toNat : ℝ) : EReal) := by
  have h : ∀ w : BitVec 1, (w.setWidth 32).toInt = (w.toNat : ℤ) := by decide
  rw [h v, Int.cast_natCast]

/-- The label column spread over the 46 classes reads, at row `r` and any class, the label of row `r`. -/
theorem label_at (x1 : Vec Ideal S20000x1 .i32) (r : Fin 20000) (c : Fin 46) :
    broadcastTo S20000x46 (shapeCast S20000x1 x1 shapeCasts_S20000x1_S20000x1) broadcasts_S20000x1_S20000x46 (ix2 r c)
      = x1 (ix2 r (0 : Fin 1)) := by
  rw [shapeCast_self]
  exact broadcastTo_apply x1 broadcasts_S20000x1_S20000x46 (ix2 r c) (ix2 r (0 : Fin 1)) (fun a => match a with
    | ⟨0, _⟩ => by show r.val = if (20000 : Nat) = 1 then 0 else r.val; rw [if_neg (by decide)]
    | ⟨1, _⟩ => by show 0 = if (1 : Nat) = 1 then 0 else c.val; rw [if_pos rfl])

/-- The class numbers laid along the columns read, at any row and class `c`, the number `c`. -/
theorem class_at (r : Fin 20000) (c : Fin 46) :
    iota .tc S20000x46 32 [1] iota_S20000x46_d1_w32 (ix2 r c) = BitVec.ofNat 32 c.val :=
  iota_single_apply .tc S20000x46 32 1 iota_S20000x46_d1_w32 (ix2 r c)

/-- The one-hot of a block at row `r`, class `c`. -/
theorem hot_at (x1 : Vec Ideal S20000x1 .i32) (r : Fin 20000) (c : Fin 46) :
    k0_pay4 (F := Ideal) x1 (ix2 r c) = hot (x1 (ix2 r (0 : Fin 1))) c := by
  unfold k0_pay4 hot
  show ((((IntOp.cmpi .eq
      (broadcastTo S20000x46 (shapeCast S20000x1 x1 shapeCasts_S20000x1_S20000x1) broadcasts_S20000x1_S20000x46 (ix2 r c))
      (iota .tc S20000x46 32 [1] iota_S20000x46_d1_w32 (ix2 r c))).setWidth 32).toInt : ℝ) : EReal) = _
  rw [label_at, class_at, widened_bit]

/-! ## A sum down the rows of a block -/

theorem rowSum (v : FVec Ideal S20000x46 .f32) (c : Fin 46) :
    multiReduction .add [0] S46 v 0x00000000#32 reduces_S20000x46_S46 (.inl rfl) rfl (ix1 c) = ∑ r : Fin 20000, v (ix2 r c) := by
  refine (Ideal.multiReduction_add_single v 0x00000000#32 reduces_S20000x46_S46 (.inl rfl) rfl (ix1 c)).trans ?_
  show ∑ r : Fin 20000, v (reduces_S20000x46_S46.lift (ix1 c) r) = _
  exact Finset.sum_congr rfl fun r _ =>
    congrArg v (funext fun a => Fin.ext (by match a with | ⟨0, _⟩ => rfl | ⟨1, _⟩ => rfl))

/-! ## The three stored values -/

/-- Column sums: the old entry plus the block's predictions for `c`. -/
theorem col_step (x0 : Vec Ideal S20000x46 .f32) (acc : Vec Ideal S46 .f32) (c : Fin 46) :
    k0_pay5 (F := Ideal) x0 acc (ix1 c) = acc (ix1 c) + ∑ r : Fin 20000, x0 (ix2 r c) := by
  unfold k0_pay5
  exact (addf_apply _ _ (ix1 c)).trans
    (congrArg₂ (· + ·) (congrFun (shapeCast_self acc shapeCasts_S46_S46) (ix1 c)) (rowSum x0 c))

/-- Counts: the old entry plus the block's one-hots for `c`. -/
theorem cnt_step (x1 : Vec Ideal S20000x1 .i32) (acc : Vec Ideal S46 .f32) (c : Fin 46) :
    k0_pay6 (F := Ideal) x1 acc (ix1 c) = acc (ix1 c) + ∑ r : Fin 20000, hot (x1 (ix2 r (0 : Fin 1))) c := by
  unfold k0_pay6
  exact (addf_apply _ _ (ix1 c)).trans
    (congrArg₂ (· + ·) (congrFun (shapeCast_self acc shapeCasts_S46_S46) (ix1 c))
      ((rowSum (k0_pay4 (F := Ideal) x1) c).trans (Finset.sum_congr rfl fun r _ => hot_at x1 r c)))

/-- Hit sums: the old entry plus the block's one-hot-weighted predictions for `c`. -/
theorem hit_step (x0 : Vec Ideal S20000x46 .f32) (x1 : Vec Ideal S20000x1 .i32) (acc : Vec Ideal S46 .f32) (c : Fin 46) :
    k0_pay7 (F := Ideal) x0 x1 acc (ix1 c)
      = acc (ix1 c) + ∑ r : Fin 20000, hot (x1 (ix2 r (0 : Fin 1))) c * x0 (ix2 r c) := by
  unfold k0_pay7
  exact (addf_apply _ _ (ix1 c)).trans
    (congrArg₂ (· + ·) (congrFun (shapeCast_self acc shapeCasts_S46_S46) (ix1 c))
      ((rowSum (mulf (k0_pay4 (F := Ideal) x1) x0) c).trans
        (Finset.sum_congr rfl fun r _ =>
          (mulf_apply _ _ (ix2 r c)).trans (congrArg (· * x0 (ix2 r c)) (hot_at x1 r c)))))

end Cert.KernelIdeal.BlockTerms

end
-- ==== Proof.RunningSums.lean ====
/-
  The running sums, one grid point at a time, over the extended reals.

  Fix the prediction array `X` and the labels `lab`. Call `x0` a block of predictions for block number `t` when its entry
  `(r, k)` is `X (20000 t + r, k)`, and `x1` a block of labels for `t` when its entry `(r, 0)` is `lab (20000 t + r)`.
  Then, for a class `k`:
    the sum down such a block — of the predictions, of the one-hot times the predictions, of the one-hot — is the sum of
      the corresponding summand over the rows of block `t`;
    starting from zero, the first point leaves the sum over block 0;
    a point that finds the sum over blocks 0 … t leaves the sum over blocks 0 … t + 1.
-/
import proofs.«134390_j83081847374037_2_alg».proof.Proof.BlockTerms

noncomputable section

open Idealize.ShloMosaic Idealize.ShloMosaic.ValueIdx

namespace Cert.KernelIdeal.RunningSums

open Cert.KernelIdeal Cert.KernelIdeal.Gen Cert.ClassSums Cert.KernelIdeal.BlockTerms

variable (X : Preds) (lab : Fin 2000000 → BitVec 32)

/-- `x0` holds rows `20000 t …` of the predictions. -/
def IsPredBlock (t : ℕ) (ht : t < 100) (x0 : Vec Ideal S20000x46 .f32) : Prop :=
  ∀ (r : Fin 20000) (k : Fin 46), x0 (ix2 r k) = X (ix2 (row ⟨t, ht⟩ r) k)

/-- `x1` holds rows `20000 t …` of the labels. -/
def IsLabelBlock (t : ℕ) (ht : t < 100) (x1 : Vec Ideal S20000x1 .i32) : Prop :=
  ∀ r : Fin 20000, x1 (ix2 r (0 : Fin 1)) = lab (row ⟨t, ht⟩ r)

/-! ## A block's contribution is the sum over the block's rows -/

theorem col_block (t : ℕ) (ht : t < 100) (x0 : Vec Ideal S20000x46 .f32) (h0 : IsPredBlock X t ht x0) (k : Fin 46) :
    ∑ r : Fin 20000, x0 (ix2 r k) = blockSum (colTerm X k) t := by
  rw [blockSum_of_lt _ _ ht]
  exact Finset.sum_congr rfl fun r _ => h0 r k

theorem hit_block (t : ℕ) (ht : t < 100) (x0 : Vec Ideal S20000x46 .f32) (h0 : IsPredBlock X t ht x0)
    (x1 : Vec Ideal S20000x1 .i32) (h1 : IsLabelBlock lab t ht x1) (k : Fin 46) :
    ∑ r : Fin 20000, hot (x1 (ix2 r (0 : Fin 1))) k * x0 (ix2 r k) = blockSum (hitTerm X lab k) t := by
  rw [blockSum_of_lt _ _ ht]
  refine Finset.sum_congr rfl fun r _ => ?_
  rw [h1 r, h0 r k]
  rfl

theorem cnt_block (t : ℕ) (ht : t < 100) (x1 : Vec Ideal S20000x1 .i32) (h1 : IsLabelBlock lab t ht x1) (k : Fin 46) :
    ∑ r : Fin 20000, hot (x1 (ix2 r (0 : Fin 1))) k = blockSum (cntTerm lab k) t := by
  rw [blockSum_of_lt _ _ ht]
  refine Finset.sum_congr rfl fun r _ => ?_
  rw [h1 r]
  rfl

/-! ## The first point -/

theorem first_col (ht : 0 < 100) (x0 : Vec Ideal S20000x46 .f32) (h0 : IsPredBlock X 0 ht x0) (k : Fin 46) :
    k0_pay5 (F := Ideal) x0 (k0_pay1 (F := Ideal)) (ix1 k) = firstBlocks (colTerm X k) 0 := by
  rw [col_step, zero_col, zero_add, firstBlocks_zero, col_block X 0 ht x0 h0 k]

theorem first_hit (ht : 0 < 100) (x0 : Vec Ideal S20000x46 .f32) (h0 : IsPredBlock X 0 ht x0)
    (x1 : Vec Ideal S20000x1 .i32) (h1 : IsLabelBlock lab 0 ht x1) (k : Fin 46) :
    k0_pay7 (F := Ideal) x0 x1 (k0_pay2 (F := Ideal)) (ix1 k) = firstBlocks (hitTerm X lab k) 0 := by
  rw [hit_step, zero_hit, zero_add, firstBlocks_zero, hit_block X lab 0 ht x0 h0 x1 h1 k]

theorem first_cnt (ht : 0 < 100) (x1 : Vec Ideal S20000x1 .i32) (h1 : IsLabelBlock lab 0 ht x1) (k : Fin 46) :
    k0_pay6 (F := Ideal) x1 (k0_pay3 (F := Ideal)) (ix1 k) = firstBlocks (cntTerm lab k) 0 := by
  rw [cnt_step, zero_cnt, zero_add, firstBlocks_zero, cnt_block lab 0 ht x1 h1 k]

/-! ## A later point -/

theorem next_col (t : ℕ) (ht : t + 1 < 100) (x0 : Vec Ideal S20000x46 .f32) (h0 : IsPredBlock X (t + 1) ht x0)
    (acc : Vec Ideal S46 .f32) (k : Fin 46) (ha : acc (ix1 k) = firstBlocks (colTerm X k) t) :
    k0_pay5 (F := Ideal) x0 acc (ix1 k) = firstBlocks (colTerm X k) (t + 1) := by
  rw [col_step, ha, firstBlocks_succ, col_block X (t + 1) ht x0 h0 k]

theorem next_hit (t : ℕ) (ht : t + 1 < 100) (x0 : Vec Ideal S20000x46 .f32) (h0 : IsPredBlock X (t + 1) ht x0)
    (x1 : Vec Ideal S20000x1 .i32) (h1 : IsLabelBlock lab (t + 1) ht x1)
    (acc : Vec Ideal S46 .f32) (k : Fin 46) (ha : acc (ix1 k) = firstBlocks (hitTerm X lab k) t) :
    k0_pay7 (F := Ideal) x0 x1 acc (ix1 k) = firstBlocks (hitTerm X lab k) (t + 1) := by
  rw [hit_step, ha, firstBlocks_succ, hit_block X lab (t + 1) ht x0 h0 x1 h1 k]

theorem next_cnt (t : ℕ) (ht : t + 1 < 100) (x1 : Vec Ideal S20000x1 .i32) (h1 : IsLabelBlock lab (t + 1) ht x1)
    (acc : Vec Ideal S46 .f32) (k : Fin 46) (ha : acc (ix1 k) = firstBlocks (cntTerm lab k) t) :
    k0_pay6 (F := Ideal) x1 acc (ix1 k) = firstBlocks (cntTerm lab k) (t + 1) := by
  rw [cnt_step, ha, firstBlocks_succ, cnt_block lab (t + 1) ht x1 h1 k]

end Cert.KernelIdeal.RunningSums

end
-- ==== Proof.SumsAfter.lean ====
/-
  What the three running sums hold after every grid point.

  With `X` the prediction array and `lab` the labels as the kernel's region finds them, after grid point `n` the three
  vectors the body keeps hold, at class `k`, the sums of the three summands over the rows of blocks 0 … n: the first point
  starts them from zero (its window blocks are block 0), and each later point adds block `n + 1` to what the point before
  left (its window blocks are block `n + 1`). This is an induction on the point; the grid is never enumerated.
-/
import proofs.«134390_j83081847374037_2_alg».proof.Proof.Gen.KernelIdeal.Frame
import proofs.«134390_j83081847374037_2_alg».proof.Proof.BodyLeaves
import proofs.«134390_j83081847374037_2_alg».proof.Proof.BlockReads
import proofs.«134390_j83081847374037_2_alg».proof.Proof.RunningSums

noncomputable section

open Idealize.ShloMosaic Idealize.ShloMosaic.TcCoe Idealize.ShloMosaic.ValueIdx Idealize.SL.Sem

namespace Cert.KernelIdeal.SumsAfter

open Cert.KernelIdeal Cert.KernelIdeal.Gen Cert.ClassSums
open Cert.KernelIdeal.BodyLeaves Cert.KernelIdeal.BlockReads Cert.KernelIdeal.RunningSums

variable (m : (ℓ : Loc nD τ sig) → Buf (Elt Ideal) ℓ)

/-- The predictions as the region finds them. -/
def preds (c : Dev nD) : Preds := V m c main_arg0
/-- The labels as the region finds them: label `n` is entry `(n, 0)` of the label column. -/
def labels (c : Dev nD) : Fin 2000000 → BitVec 32 := fun n => V m c main_v0 (ix2 n (0 : Fin 1))

/-- At point `t` the predictions' window holds block `t` of the predictions, -/
theorem pred_is (c : Dev nD) (t : Fin cfg0.N) (ht : t.val < 100) : IsPredBlock (preds m c) t.val ht (iblk m c 0 t) :=
  fun r k => pred_block m c t ht r k
/-- and the labels' window block `t` of the labels. -/
theorem label_is (c : Dev nD) (t : Fin cfg0.N) (ht : t.val < 100) : IsLabelBlock (labels m c) t.val ht (iblk m c 1 t) :=
  fun r => label_block m c t ht r

/-- After point `n` the three vectors hold, at class `k`, the three sums over the rows of blocks 0 … n. -/
theorem sums_after (c : Dev nD) (k : Fin 46) : ∀ (n : ℕ) (h : n < cfg0.N),
    (outsAt0 m c n h).1 (ix1 k) = firstBlocks (colTerm (preds m c) k) n
    ∧ (outsAt0 m c n h).2.1 (ix1 k) = firstBlocks (hitTerm (preds m c) (labels m c) k) n
    ∧ (outsAt0 m c n h).2.2 (ix1 k) = firstBlocks (cntTerm (labels m c) k) n
  | 0, h => by
    have e := outsAt0_A m c (⟨0, h⟩ : Fin cfg0.N) rfl
    have hc : cond0_0 (grid0.coords (⟨0, h⟩ : Fin cfg0.N)) := (hcond0_0 (⟨0, h⟩ : Fin cfg0.N)).mpr rfl
    have e2 := (congrArg (fun p => p.1) e).trans (left_A_2 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) hc (iblk m c 0 (⟨0, h⟩ : Fin cfg0.N)) (iblk m c 1 (⟨0, h⟩ : Fin cfg0.N)))
    have e3 := (congrArg (fun p => p.2.1) e).trans (left_A_3 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) hc (iblk m c 0 (⟨0, h⟩ : Fin cfg0.N)) (iblk m c 1 (⟨0, h⟩ : Fin cfg0.N)))
    have e4 := (congrArg (fun p => p.2.2) e).trans (left_A_4 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) hc (iblk m c 0 (⟨0, h⟩ : Fin cfg0.N)) (iblk m c 1 (⟨0, h⟩ : Fin cfg0.N)))
    have ht : ((⟨0, h⟩ : Fin cfg0.N)).val < 100 := Nat.zero_lt_succ 99
    exact ⟨(congrFun e2 (ix1 k)).trans (first_col (preds m c) ht (iblk m c 0 (⟨0, h⟩ : Fin cfg0.N)) (pred_is m c (⟨0, h⟩ : Fin cfg0.N) ht) k),
      (congrFun e3 (ix1 k)).trans (first_hit (preds m c) (labels m c) ht (iblk m c 0 (⟨0, h⟩ : Fin cfg0.N)) (pred_is m c (⟨0, h⟩ : Fin cfg0.N) ht)
        (iblk m c 1 (⟨0, h⟩ : Fin cfg0.N)) (label_is m c (⟨0, h⟩ : Fin cfg0.N) ht) k),
      (congrFun e4 (ix1 k)).trans (first_cnt (labels m c) ht (iblk m c 1 (⟨0, h⟩ : Fin cfg0.N)) (label_is m c (⟨0, h⟩ : Fin cfg0.N) ht) k)⟩
  | n + 1, h => by
    have hN : cfg0.N = 100 := N_0
    have ht : n + 1 < 100 := by omega
    have hB : ¬((⟨n + 1, h⟩ : Fin cfg0.N)).val % 100 = 0 := by dsimp only; omega
    obtain ⟨i2, i3, i4⟩ := sums_after c k n (Nat.lt_of_succ_lt h)
    have e := outsAt0_B m c (⟨n + 1, h⟩ : Fin cfg0.N) hB
    have hc : ¬cond0_0 (grid0.coords (⟨n + 1, h⟩ : Fin cfg0.N)) := fun hh => hB ((hcond0_0 (⟨n + 1, h⟩ : Fin cfg0.N)).mp hh)
    have e2 := (congrArg (fun p => p.1) e).trans
      (left_B_2 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) hc (iblk m c 0 (⟨n + 1, h⟩ : Fin cfg0.N)) (iblk m c 1 (⟨n + 1, h⟩ : Fin cfg0.N)) (outsAt0 m c n (Nat.lt_of_succ_lt h)).1 (outsAt0 m c n (Nat.lt_of_succ_lt h)).2.1 (outsAt0 m c n (Nat.lt_of_succ_lt h)).2.2)
    have e3 := (congrArg (fun p => p.2.1) e).trans
      (left_B_3 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) hc (iblk m c 0 (⟨n + 1, h⟩ : Fin cfg0.N)) (iblk m c 1 (⟨n + 1, h⟩ : Fin cfg0.N)) (outsAt0 m c n (Nat.lt_of_succ_lt h)).1 (outsAt0 m c n (Nat.lt_of_succ_lt h)).2.1 (outsAt0 m c n (Nat.lt_of_succ_lt h)).2.2)
    have e4 := (congrArg (fun p => p.2.2) e).trans
      (left_B_4 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) hc (iblk m c 0 (⟨n + 1, h⟩ : Fin cfg0.N)) (iblk m c 1 (⟨n + 1, h⟩ : Fin cfg0.N)) (outsAt0 m c n (Nat.lt_of_succ_lt h)).1 (outsAt0 m c n (Nat.lt_of_succ_lt h)).2.1 (outsAt0 m c n (Nat.lt_of_succ_lt h)).2.2)
    exact ⟨(congrFun e2 (ix1 k)).trans (next_col (preds m c) n ht (iblk m c 0 (⟨n + 1, h⟩ : Fin cfg0.N)) (pred_is m c (⟨n + 1, h⟩ : Fin cfg0.N) ht) (outsAt0 m c n (Nat.lt_of_succ_lt h)).1 k i2),
      (congrFun e3 (ix1 k)).trans (next_hit (preds m c) (labels m c) n ht (iblk m c 0 (⟨n + 1, h⟩ : Fin cfg0.N)) (pred_is m c (⟨n + 1, h⟩ : Fin cfg0.N) ht)
        (iblk m c 1 (⟨n + 1, h⟩ : Fin cfg0.N)) (label_is m c (⟨n + 1, h⟩ : Fin cfg0.N) ht) (outsAt0 m c n (Nat.lt_of_succ_lt h)).2.1 k i3),
      (congrFun e4 (ix1 k)).trans (next_cnt (labels m c) n ht (iblk m c 1 (⟨n + 1, h⟩ : Fin cfg0.N)) (label_is m c (⟨n + 1, h⟩ : Fin cfg0.N) ht) (outsAt0 m c n (Nat.lt_of_succ_lt h)).2.2 k i4)⟩

end Cert.KernelIdeal.SumsAfter

end
-- ==== Proof.FinalVectors.lean ====
/-
  The kernel's three result arrays after the run.

  Each of the three vectors is written back to its array once, after the last grid point, and its one block is the whole
  array of 46 entries; so the three arrays end as what the body left after point 99, which at class `k` is the sum of the
  summand over the rows of blocks 0 … 99: over all 2,000,000 rows.
-/
import proofs.«134390_j83081847374037_2_alg».proof.Proof.Gen.KernelIdeal.Frame
import proofs.«134390_j83081847374037_2_alg».proof.Proof.SumsAfter
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.FinalVectors

open Cert.KernelIdeal Cert.KernelIdeal.Gen Cert.ClassSums Cert.KernelIdeal.SumsAfter

variable (m : (ℓ : Loc nD τ sig) → Buf (Elt Ideal) ℓ)

theorem last_lt : 99 < cfg0.N := by rw [show cfg0.N = 100 from N_0]; decide

/-- A point numbered 99 is the last point. -/
theorem outsAt_last (c : Dev nD) (t : Fin cfg0.N) (h99 : t.val = 99) :
    outsAt0 m c t.val t.isLt = outsAt0 m c 99 last_lt := by
  obtain ⟨n, hn⟩ := t
  dsimp only at h99
  subst h99
  rfl

/-! ### The column sums -/

/-- The window of the column sums is at block 0 at every point, and its block is all 46 entries. -/
theorem index_col : ∀ t : Fin cfg0.N, win0_2.index t (0 : Fin 1) = 0 :=
  (by decide +kernel : ∀ t : Fin grid0.N, win0_2.index t (0 : Fin 1) = 0)
theorem extent_col : ∀ t : Fin cfg0.N, win0_2.xsize (grid0.coords t) (0 : Fin 1) = 46 :=
  (by decide +kernel : ∀ t : Fin grid0.N, win0_2.xsize (grid0.coords t) (0 : Fin 1) = 46)

/-- So at any point, of any contents `G` of the array, the block is all of `G`. -/
theorem whole_col (c : Dev nD) (t : Fin cfg0.N) (G : Buf (Elt Ideal) ((c : Thread nD τ).loc main_v1_0)) :
    (cfg0.win 2).cut (grid0.coords t) G = ((cfg0.win 2).blk t).view.read (Elt Ideal) G := by
  have hz' : (fun a => win0_2.index t a * main_v1_0.ty.shape.size a) = fun _ => 0 :=
    funext fun a => by
      match a with
      | ⟨0, _⟩ =>
        show win0_2.index t (0 : Fin 1) * 46 = 0
        rw [index_col t]
  exact (Memref.read_access_unit_zero (Elt Ideal) main_v1_0 hz' (fun a => by rw [congrFun hz' a]; simp) G).symm

/-- What the body leaves in the column sums after the last point. -/
def end_col (c : Dev nD) : Buf (Elt Ideal) ((c : Thread nD τ).loc main_v1_0) := (outsAt0 m c 99 last_lt).1

/-- The one write-back of the column sums, at the last point, writes that. -/
theorem flushed_col (c : Dev nD) (t : Fin cfg0.N) (hf : (cfg0.win 2).flush t = true) :
    (dats m 0 c).flushed 2 t = ((cfg0.win 2).blk t).view.read (Elt Ideal) (end_col m c) := by
  have hN : cfg0.N = 100 := N_0
  have h99 : t.val = 99 := by have := (flush0_2 t).mp hf; have := t.isLt; omega
  have e : (dats m 0 c).after 2 t = end_col m c :=
    (after0_2 m c t).trans (congrArg (fun p => p.1) (outsAt_last m c t h99))
  show (cfg0.win 2).cut (grid0.coords t) ((dats m 0 c).after 2 t) = _
  rw [e]
  exact whole_col c t (end_col m c)

/-- So the array of the column sums ends as what the body left after the last point. -/
theorem final_col (c : Dev nD) : (dats m 0 c).arrAt 2 cfg0.N = end_col m c :=
  (dats m 0 c).arrAt_eq_of_cover 2 (end_col m c) (flushed_col m c) fun i =>
    ⟨(⟨99, last_lt⟩ : Fin cfg0.N), (flush0_2 (⟨99, last_lt⟩ : Fin cfg0.N)).mpr rfl, by
      show i ∈ ((View.whole main_v1_0).slice (win0_2.rect (⟨99, last_lt⟩ : Fin cfg0.N))).set
      rw [View.set_slice_whole, Rect.mem_set_unit]
      intro a
      have h0 : (i 0 : Nat) < 46 := (i 0).isLt
      match a with
      | ⟨0, _⟩ =>
        show win0_2.index (⟨99, last_lt⟩ : Fin cfg0.N) (0 : Fin 1) * win0_2.size 0 ≤ (i 0 : Nat)
          ∧ (i 0 : Nat) < win0_2.index (⟨99, last_lt⟩ : Fin cfg0.N) (0 : Fin 1) * win0_2.size 0 + win0_2.xsize (grid0.coords (⟨99, last_lt⟩ : Fin cfg0.N)) (0 : Fin 1)
        rw [index_col (⟨99, last_lt⟩ : Fin cfg0.N), extent_col (⟨99, last_lt⟩ : Fin cfg0.N)]
        omega⟩

/-! ### The hit sums -/

/-- The window of the hit sums is at block 0 at every point, and its block is all 46 entries. -/
theorem index_hit : ∀ t : Fin cfg0.N, win0_3.index t (0 : Fin 1) = 0 :=
  (by decide +kernel : ∀ t : Fin grid0.N, win0_3.index t (0 : Fin 1) = 0)
theorem extent_hit : ∀ t : Fin cfg0.N, win0_3.xsize (grid0.coords t) (0 : Fin 1) = 46 :=
  (by decide +kernel : ∀ t : Fin grid0.N, win0_3.xsize (grid0.coords t) (0 : Fin 1) = 46)

/-- So at any point, of any contents `G` of the array, the block is all of `G`. -/
theorem whole_hit (c : Dev nD) (t : Fin cfg0.N) (G : Buf (Elt Ideal) ((c : Thread nD τ).loc main_v1_1)) :
    (cfg0.win 3).cut (grid0.coords t) G = ((cfg0.win 3).blk t).view.read (Elt Ideal) G := by
  have hz' : (fun a => win0_3.index t a * main_v1_1.ty.shape.size a) = fun _ => 0 :=
    funext fun a => by
      match a with
      | ⟨0, _⟩ =>
        show win0_3.index t (0 : Fin 1) * 46 = 0
        rw [index_hit t]
  exact (Memref.read_access_unit_zero (Elt Ideal) main_v1_1 hz' (fun a => by rw [congrFun hz' a]; simp) G).symm

/-- What the body leaves in the hit sums after the last point. -/
def end_hit (c : Dev nD) : Buf (Elt Ideal) ((c : Thread nD τ).loc main_v1_1) := (outsAt0 m c 99 last_lt).2.1

/-- The one write-back of the hit sums, at the last point, writes that. -/
theorem flushed_hit (c : Dev nD) (t : Fin cfg0.N) (hf : (cfg0.win 3).flush t = true) :
    (dats m 0 c).flushed 3 t = ((cfg0.win 3).blk t).view.read (Elt Ideal) (end_hit m c) := by
  have hN : cfg0.N = 100 := N_0
  have h99 : t.val = 99 := by have := (flush0_3 t).mp hf; have := t.isLt; omega
  have e : (dats m 0 c).after 3 t = end_hit m c :=
    (after0_3 m c t).trans (congrArg (fun p => p.2.1) (outsAt_last m c t h99))
  show (cfg0.win 3).cut (grid0.coords t) ((dats m 0 c).after 3 t) = _
  rw [e]
  exact whole_hit c t (end_hit m c)

/-- So the array of the hit sums ends as what the body left after the last point. -/
theorem final_hit (c : Dev nD) : (dats m 0 c).arrAt 3 cfg0.N = end_hit m c :=
  (dats m 0 c).arrAt_eq_of_cover 3 (end_hit m c) (flushed_hit m c) fun i =>
    ⟨(⟨99, last_lt⟩ : Fin cfg0.N), (flush0_3 (⟨99, last_lt⟩ : Fin cfg0.N)).mpr rfl, by
      show i ∈ ((View.whole main_v1_1).slice (win0_3.rect (⟨99, last_lt⟩ : Fin cfg0.N))).set
      rw [View.set_slice_whole, Rect.mem_set_unit]
      intro a
      have h0 : (i 0 : Nat) < 46 := (i 0).isLt
      match a with
      | ⟨0, _⟩ =>
        show win0_3.index (⟨99, last_lt⟩ : Fin cfg0.N) (0 : Fin 1) * win0_3.size 0 ≤ (i 0 : Nat)
          ∧ (i 0 : Nat) < win0_3.index (⟨99, last_lt⟩ : Fin cfg0.N) (0 : Fin 1) * win0_3.size 0 + win0_3.xsize (grid0.coords (⟨99, last_lt⟩ : Fin cfg0.N)) (0 : Fin 1)
        rw [index_hit (⟨99, last_lt⟩ : Fin cfg0.N), extent_hit (⟨99, last_lt⟩ : Fin cfg0.N)]
        omega⟩

/-! ### The counts -/

/-- The window of the counts is at block 0 at every point, and its block is all 46 entries. -/
theorem index_cnt : ∀ t : Fin cfg0.N, win0_4.index t (0 : Fin 1) = 0 :=
  (by decide +kernel : ∀ t : Fin grid0.N, win0_4.index t (0 : Fin 1) = 0)
theorem extent_cnt : ∀ t : Fin cfg0.N, win0_4.xsize (grid0.coords t) (0 : Fin 1) = 46 :=
  (by decide +kernel : ∀ t : Fin grid0.N, win0_4.xsize (grid0.coords t) (0 : Fin 1) = 46)

/-- So at any point, of any contents `G` of the array, the block is all of `G`. -/
theorem whole_cnt (c : Dev nD) (t : Fin cfg0.N) (G : Buf (Elt Ideal) ((c : Thread nD τ).loc main_v1_2)) :
    (cfg0.win 4).cut (grid0.coords t) G = ((cfg0.win 4).blk t).view.read (Elt Ideal) G := by
  have hz' : (fun a => win0_4.index t a * main_v1_2.ty.shape.size a) = fun _ => 0 :=
    funext fun a => by
      match a with
      | ⟨0, _⟩ =>
        show win0_4.index t (0 : Fin 1) * 46 = 0
        rw [index_cnt t]
  exact (Memref.read_access_unit_zero (Elt Ideal) main_v1_2 hz' (fun a => by rw [congrFun hz' a]; simp) G).symm

/-- What the body leaves in the counts after the last point. -/
def end_cnt (c : Dev nD) : Buf (Elt Ideal) ((c : Thread nD τ).loc main_v1_2) := (outsAt0 m c 99 last_lt).2.2

/-- The one write-back of the counts, at the last point, writes that. -/
theorem flushed_cnt (c : Dev nD) (t : Fin cfg0.N) (hf : (cfg0.win 4).flush t = true) :
    (dats m 0 c).flushed 4 t = ((cfg0.win 4).blk t).view.read (Elt Ideal) (end_cnt m c) := by
  have hN : cfg0.N = 100 := N_0
  have h99 : t.val = 99 := by have := (flush0_4 t).mp hf; have := t.isLt; omega
  have e : (dats m 0 c).after 4 t = end_cnt m c :=
    (after0_4 m c t).trans (congrArg (fun p => p.2.2) (outsAt_last m c t h99))
  show (cfg0.win 4).cut (grid0.coords t) ((dats m 0 c).after 4 t) = _
  rw [e]
  exact whole_cnt c t (end_cnt m c)

/-- So the array of the counts ends as what the body left after the last point. -/
theorem final_cnt (c : Dev nD) : (dats m 0 c).arrAt 4 cfg0.N = end_cnt m c :=
  (dats m 0 c).arrAt_eq_of_cover 4 (end_cnt m c) (flushed_cnt m c) fun i =>
    ⟨(⟨99, last_lt⟩ : Fin cfg0.N), (flush0_4 (⟨99, last_lt⟩ : Fin cfg0.N)).mpr rfl, by
      show i ∈ ((View.whole main_v1_2).slice (win0_4.rect (⟨99, last_lt⟩ : Fin cfg0.N))).set
      rw [View.set_slice_whole, Rect.mem_set_unit]
      intro a
      have h0 : (i 0 : Nat) < 46 := (i 0).isLt
      match a with
      | ⟨0, _⟩ =>
        show win0_4.index (⟨99, last_lt⟩ : Fin cfg0.N) (0 : Fin 1) * win0_4.size 0 ≤ (i 0 : Nat)
          ∧ (i 0 : Nat) < win0_4.index (⟨99, last_lt⟩ : Fin cfg0.N) (0 : Fin 1) * win0_4.size 0 + win0_4.xsize (grid0.coords (⟨99, last_lt⟩ : Fin cfg0.N)) (0 : Fin 1)
        rw [index_cnt (⟨99, last_lt⟩ : Fin cfg0.N), extent_cnt (⟨99, last_lt⟩ : Fin cfg0.N)]
        omega⟩

/-! ## Their entries are the sums over all rows -/

theorem end_col_at (c : Dev nD) (k : Fin 46) : end_col m c (ix1 k) = colSum (preds m c) k := by
  unfold end_col colSum
  exact ((sums_after m c k 99 last_lt).1).trans (firstBlocks_last (colTerm (preds m c) k))
theorem end_hit_at (c : Dev nD) (k : Fin 46) : end_hit m c (ix1 k) = hitSum (preds m c) (labels m c) k := by
  unfold end_hit hitSum
  exact ((sums_after m c k 99 last_lt).2.1).trans (firstBlocks_last (hitTerm (preds m c) (labels m c) k))
theorem end_cnt_at (c : Dev nD) (k : Fin 46) : end_cnt m c (ix1 k) = cntSum (labels m c) k := by
  unfold end_cnt cntSum
  exact ((sums_after m c k 99 last_lt).2.2).trans (firstBlocks_last (cntTerm (labels m c) k))

end Cert.KernelIdeal.FinalVectors

end
-- ==== Proof.LossTail.lean ====
/-
  From the three per-class sums to the loss, as ONE function.

  With `col`, `hit`, `cnt` the column sum, hit sum and count of each of the 46 classes, and ε the float 1e-07:
    ratio hit tot = hit / ((hit + (tot - hit)) + ε)
    precision     = ratio hit col            recall = ratio hit cnt
    f1            = ((2 · precision) · recall) / ((precision + recall) + ε), clipped below at ε and above at 0.99999988
    loss          = 1 - (0 + ∑ over the classes of f1) / 46
  Both programs end with exactly these operations on exactly these float words, so what has to be shown of the two programs is
  that the three sums going in are equal; this function is applied to them and never opened.
-/
import Idealize.ShloMosaic.PureOps

noncomputable section

namespace Cert.ClassSums

open Idealize.ShloMosaic

/-- One number per class. -/
abbrev PerClass : Shape := ⟨1, ![46]⟩
/-- A single number. -/
abbrev One : Shape := ⟨0, ![]⟩

variable {F : FTy → Type} [FloatOps F]

/-- `hit / ((hit + (tot - hit)) + ε)`, class by class. -/
def ratio (hb : One.BroadcastsInDim PerClass (![] : Fin 0 → Fin PerClass.rank)) (hit tot : FVec F PerClass .f32) :
    FVec F PerClass .f32 :=
  Host.divf hit (addf (addf hit (subf tot hit)) (broadcastInDim PerClass ![] hb (constant One .f32 0x33D6BF95#32)))

/-- The loss from the three per-class sums. -/
def lossTail (hb : One.BroadcastsInDim PerClass (![] : Fin 0 → Fin PerClass.rank)) (hr : PerClass.ReducesTo [0] One)
    (hp : 0 < One.numel) (col hit cnt : FVec F PerClass .f32) : FVec F One .f32 :=
  subf (constant One .f32 0x3F800000#32)
    (Host.divf
      (Host.reduceAdd
        (minimumf (broadcastInDim PerClass ![] hb (id (constant One .f32 0x3F7FFFFE#32)))
          (maximumf (broadcastInDim PerClass ![] hb (id (constant One .f32 0x33D6BF95#32)))
            (Host.divf
              (mulf (mulf (broadcastInDim PerClass ![] hb (constant One .f32 0x40000000#32)) (ratio hb hit col)) (ratio hb hit cnt))
              (addf (addf (ratio hb hit col) (ratio hb hit cnt))
                (broadcastInDim PerClass ![] hb (constant One .f32 0x33D6BF95#32))))))
        (constant One .f32 0x00000000#32) hr hp)
      (constant One .f32 0x42380000#32))

end Cert.ClassSums

end
-- ==== Proof.AfterKernel.lean ====
/-
  The operations after the kernel, over any contents of the buffers.

  After the kernel the program computes the loss from the kernel's three result arrays by 35 elementwise operations, one
  clip and one sum over the classes. Run from any contents `W` of the buffers, they leave in the result buffer the loss
  function of what `W` holds in the three result arrays: each operation writes its own buffer from buffers written before
  it, so reading the last one back composes them.
-/
import proofs.«134390_j83081847374037_2_alg».proof.Proof.Gen.KernelIdeal.Launch
import proofs.«134390_j83081847374037_2_alg».proof.Proof.LossTail
import Idealize.ShloMosaic.Lib.StableHlo.Run

noncomputable section

open Idealize.ShloMosaic Idealize.ShloMosaic.TcCoe Idealize.SL.Sem Idealize.ShloMosaic.StableHlo

namespace Cert.KernelIdeal.AfterKernel

open Cert.KernelIdeal Cert.KernelIdeal.Gen Cert.ClassSums

variable {F : FTy → Type} [FloatOps F]

set_option maxRecDepth 8192 in
set_option maxHeartbeats 2000000 in
theorem tail_of (W : Valuation τ sig (Elt F)) :
    StableHlo.after (List.flatten [hostOps1, hostOps1_1, hostOps1_2]) W (Proc.devRef .tc main_v22)
      = lossTail (F := F) bcast_S_S46 reducesTo_S46_S_d0 h_S_ (W (Proc.devRef .tc main_v1_0)) (W (Proc.devRef .tc main_v1_1))
          (W (Proc.devRef .tc main_v1_2)) := by
  simp only [hostOps1, hostOps1_1, hostOps1_2, List.flatten_cons, List.flatten_nil, List.append_nil, List.cons_append,
    List.nil_append]
  after_results_simp
  rfl

end Cert.KernelIdeal.AfterKernel

end
-- ==== Proof.KernelResult.lean ====
/-
  The kernel's result: the loss of its three final vectors.

  The operations after the kernel read the kernel's three result arrays, which end as the three final vectors, and leave the
  loss of them in the result buffer; the arguments end as launched.
-/
import proofs.«134390_j83081847374037_2_alg».proof.Proof.Gen.KernelIdeal.Frame
import proofs.«134390_j83081847374037_2_alg».proof.Proof.FinalVectors
import proofs.«134390_j83081847374037_2_alg».proof.Proof.AfterKernel
import Idealize.ShloMosaic.Lib.Pipeline.Value
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.ClassSums Cert.KernelIdeal.FinalVectors Cert.KernelIdeal.AfterKernel

variable (m : (ℓ : Loc nD τ sig) → Buf (Elt Ideal) ℓ) (ρ : Dev nD → PrngReg)

/-- The buffers as the operations after the kernel find them: the kernel's arrays as the run left them, the rest as the
    region found them. -/
abbrev atExit (c : Dev nD) : Valuation τ sig (Elt Ideal) :=
  Pipeline.withArrays spec0 c (V0 m c) (fun w => (dats m 0 c).arrAt w cfg0.N)

theorem exit_col (c : Dev nD) : atExit m c (Proc.devRef .tc main_v1_0) = end_col m c :=
  (Pipeline.withArrays_arr spec0 launch0.win.arr_inj c (V0 m c) (fun w => (dats m 0 c).arrAt w cfg0.N) 2).trans (final_col m c)
theorem exit_hit (c : Dev nD) : atExit m c (Proc.devRef .tc main_v1_1) = end_hit m c :=
  (Pipeline.withArrays_arr spec0 launch0.win.arr_inj c (V0 m c) (fun w => (dats m 0 c).arrAt w cfg0.N) 3).trans (final_hit m c)
theorem exit_cnt (c : Dev nD) : atExit m c (Proc.devRef .tc main_v1_2) = end_cnt m c :=
  (Pipeline.withArrays_arr spec0 launch0.win.arr_inj c (V0 m c) (fun w => (dats m 0 c).arrAt w cfg0.N) 4).trans (final_cnt m c)

/-- What the operations after the kernel leave in the result buffer. -/
theorem tail_value (c : Dev nD) :
    Pipeline.afterTail₀ cfgs (dats m) 0 (V0 m) [hostOps1, hostOps1_1, hostOps1_2] c main_v22
      = lossTail (F := Ideal) bcast_S_S46 reducesTo_S46_S_d0 h_S_ (end_col m c) (end_hit m c) (end_cnt m c) := by
  have e := tail_of (F := Ideal) (atExit m c)
  rw [exit_col, exit_hit, exit_cnt] at e
  exact e

/-- The kernel's run, read: every weakly fair execution ends with the result at the loss of the three final vectors and the
    two arguments unchanged. -/
theorem run : θ_run defs (onTc (τ := τ) (main (F := Ideal))) ⟨m, fun _ => 0, ρ⟩ fun r => ∀ c : Dev nD,
      r.2.mem ((c.tc : Thread nD τ).loc main_v22)
        = lossTail (F := Ideal) bcast_S_S46 reducesTo_S46_S_d0 h_S_ (end_col m c) (end_hit m c) (end_cnt m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v22 (Pipeline.mem_restRefs_of main_v22 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.RefSums.lean ====
/-
  The reference, read: its three per-class sums, and its result as the loss of them.

  The reference forms the one-hot of the whole label vector against the class numbers and sums down all 2,000,000 rows at
  once, each sum started from the float zero. Read at a class `k` over the extended reals:
    its column sum is   0 + ∑ n, X (n, k)
    its hit sum is      0 + ∑ n, [lab n = k] · X (n, k)
    its count is        0 + ∑ n, [lab n = k]
  where the one-hot is the bit of the equality test converted as an unsigned integer: the bit itself. The float zero is the
  number zero, so these are the three sums of the specification. Everything the reference does after these three sums is
  the loss function applied to them.
-/
import proofs.«134390_j83081847374037_2_alg».proof.Defs
import proofs.«134390_j83081847374037_2_alg».proof.Proof.Gen.ReferenceIdeal.Run
import proofs.«134390_j83081847374037_2_alg».proof.Proof.Gen.ReferenceIdeal.Read
import proofs.«134390_j83081847374037_2_alg».proof.Proof.ClassSums
import proofs.«134390_j83081847374037_2_alg».proof.Proof.LossTail
import Idealize.ShloMosaic.Lib.ValueIdx
import Idealize.ShloMosaic.PureOps.Ideal.Laws

noncomputable section

open Idealize.ShloMosaic Idealize.ShloMosaic.ValueIdx

namespace Cert.ReferenceIdeal.RefSums

open Cert.ReferenceIdeal Cert.ReferenceIdeal.Gen Cert.ReferenceIdeal.Read Cert.ClassSums

/-- The labels of the reference's label vector. -/
def labelsOf (x1 : (⟨S2000000, .i32⟩ : BufTy).Contents (Elt Ideal)) : Fin 2000000 → BitVec 32 := fun n => x1 (ix1 n)

/-- The float zero every sum starts from is the number zero. -/
theorem start_zero : Ideal.ofBits .f32 0x00000000#32 = (0 : EReal) := Ideal.ofBits_zero_f32

/-- The reference's one-hot at row `n`, class `k`. -/
theorem ref_hot (x1 : (⟨S2000000, .i32⟩ : BufTy).Contents (Elt Ideal)) (n : Fin 2000000) (k : Fin 46) :
    val_main_v6 (F := Ideal) x1 (ix2 n k) = hot (labelsOf x1 n) k := by
  rw [val_main_v6_apply, val_main_v5_apply, val_main_v3_apply, val_main_v1_apply, val_main_v4_apply, val_main_v2_apply,
    val_main_v0_apply]
  have e1 : idx_main_v1 (idx_main_v3 (ix2 n k)) = ix1 n :=
    funext fun a => Fin.ext (by match a with | ⟨0, _⟩ => rfl)
  rw [e1]
  rfl

/-- The sum over a column reads the column's entries row by row. -/
theorem col_index (k : Fin 46) (n : Fin 2000000) : idx_main_v7 (ix1 k) n = ix2 n k :=
  funext fun a => Fin.ext (by match a with | ⟨0, _⟩ => rfl | ⟨1, _⟩ => rfl)
theorem hit_index (k : Fin 46) (n : Fin 2000000) : idx_main_v9 (ix1 k) n = ix2 n k :=
  funext fun a => Fin.ext (by match a with | ⟨0, _⟩ => rfl | ⟨1, _⟩ => rfl)
theorem cnt_index (k : Fin 46) (n : Fin 2000000) : idx_main_v10 (ix1 k) n = ix2 n k :=
  funext fun a => Fin.ext (by match a with | ⟨0, _⟩ => rfl | ⟨1, _⟩ => rfl)

/-- The reference's column sum of class `k`. -/
theorem ref_col (x0 : (⟨S2000000x46, .f32⟩ : BufTy).Contents (Elt Ideal)) (k : Fin 46) :
    val_main_v7 (F := Ideal) x0 (ix1 k) = colSum x0 k := by
  rw [val_main_v7_apply, val_main_cst_apply, Ideal.ofBits_def, start_zero, zero_add]
  exact Finset.sum_congr rfl fun n _ => congrArg x0 (col_index k n)

/-- The reference's hit sum of class `k`. -/
theorem ref_hit (x0 : (⟨S2000000x46, .f32⟩ : BufTy).Contents (Elt Ideal)) (x1 : (⟨S2000000, .i32⟩ : BufTy).Contents (Elt Ideal))
    (k : Fin 46) : val_main_v9 (F := Ideal) x0 x1 (ix1 k) = hitSum x0 (labelsOf x1) k := by
  rw [val_main_v9_apply, val_main_cst_0_apply, Ideal.ofBits_def, start_zero, zero_add]
  refine Finset.sum_congr rfl fun n _ => ?_
  rw [hit_index, val_main_v8_apply, ref_hot]
  rfl

/-- The reference's count of class `k`. -/
theorem ref_cnt (x1 : (⟨S2000000, .i32⟩ : BufTy).Contents (Elt Ideal)) (k : Fin 46) :
    val_main_v10 (F := Ideal) x1 (ix1 k) = cntSum (labelsOf x1) k := by
  rw [val_main_v10_apply, val_main_cst_1_apply, Ideal.ofBits_def, start_zero, zero_add]
  refine Finset.sum_congr rfl fun n _ => ?_
  rw [cnt_index, ref_hot]
  rfl

/-- The reference's result is the loss of its three sums. -/
theorem ref_loss (x0 : (⟨S2000000x46, .f32⟩ : BufTy).Contents (Elt Ideal)) (x1 : (⟨S2000000, .i32⟩ : BufTy).Contents (Elt Ideal)) :
    val_main_v31 (F := Ideal) x0 x1
      = lossTail (F := Ideal) bcast_S_S46 reducesTo_S46_S_d0 h_S_ (val_main_v7 (F := Ideal) x0) (val_main_v9 (F := Ideal) x0 x1)
          (val_main_v10 (F := Ideal) x1) := by
  unfold val_main_v31 val_main_v30 val_main_v29 val_main_v28 val_main_call0_v4 val_main_call0_v3 val_main_call0_v2
    val_main_call0_v1 val_main_call0_v0 val_main_v27 val_main_v26 val_main_v25 val_main_v24 val_main_v23 val_main_v22
    val_main_v21 val_main_v20 val_main_v19 val_main_v18 val_main_v17 val_main_v16 val_main_v15 val_main_v14 val_main_v13
    val_main_v12 val_main_v11 val_main_cst_2 val_main_cst_3 val_main_cst_4 val_main_cst_5 val_main_cst_6 val_main_cst_7
    val_main_cst_8 val_main_cst_9 val_main_cst_10 lossTail ratio
  rfl

end Cert.ReferenceIdeal.RefSums

end
-- ==== Proof.SameSums.lean ====
/-
  The kernel's three final vectors are the reference's three sums, of the same arguments.

  At a class `k` the kernel's column sums end at the column sum of the predictions as its region finds them, and the region
  finds the prediction array as launched; its hit sums and counts end at the hit sum and the count over those predictions and
  the labels as its region finds them, which are the entries of the launched label vector. The reference's three sums are
  the same three sums of its own arguments. So, entry by entry, the two triples are equal once the arguments are.
-/
import proofs.«134390_j83081847374037_2_alg».proof.Proof.KernelResult
import proofs.«134390_j83081847374037_2_alg».proof.Proof.RefSums

noncomputable section

open Idealize.ShloMosaic Idealize.ShloMosaic.TcCoe Idealize.ShloMosaic.ValueIdx Idealize.SL.Sem

namespace Cert.Proof.SameSums

open Cert.ClassSums Cert.KernelIdeal.SumsAfter Cert.KernelIdeal.FinalVectors Cert.KernelIdeal.BlockReads Cert.ReferenceIdeal.RefSums

variable (m : (ℓ : Loc Cert.KernelIdeal.nD Cert.KernelIdeal.τ Cert.KernelIdeal.sig) → Buf (Elt Ideal) ℓ)

/-- The region finds the predictions as launched. -/
theorem preds_eq (c : Dev Cert.KernelIdeal.nD) :
    preds m c = m ((c.tc : Thread Cert.KernelIdeal.nD Cert.KernelIdeal.τ).loc Cert.KernelIdeal.main_arg0) :=
  Cert.KernelIdeal.Gen.V_main_arg0 m c

/-- The labels the region finds are the entries of the launched label vector. -/
theorem labels_eq (c : Dev Cert.KernelIdeal.nD) :
    labels m c = labelsOf (m ((c.tc : Thread Cert.KernelIdeal.nD Cert.KernelIdeal.τ).loc Cert.KernelIdeal.main_arg1)) :=
  funext fun n => label_at_row m c n

theorem same_col (c : Dev Cert.KernelIdeal.nD) :
    end_col m c = Cert.ReferenceIdeal.Read.val_main_v7 (F := Ideal) (m ((c.tc : Thread Cert.KernelIdeal.nD Cert.KernelIdeal.τ).loc Cert.KernelIdeal.main_arg0)) := by
  funext j
  obtain ⟨k, rfl⟩ : ∃ k : Fin 46, j = ix1 k := ⟨j 0, eq_ix1 j⟩
  exact ((end_col_at m c k).trans (congrArg (fun X => colSum X k) (preds_eq m c))).trans (ref_col _ k).symm

theorem same_hit (c : Dev Cert.KernelIdeal.nD) :
    end_hit m c = Cert.ReferenceIdeal.Read.val_main_v9 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  funext j
  obtain ⟨k, rfl⟩ : ∃ k : Fin 46, j = ix1 k := ⟨j 0, eq_ix1 j⟩
  refine ((end_hit_at m c k).trans ?_).trans (ref_hit _ _ k).symm
  rw [preds_eq, labels_eq]

theorem same_cnt (c : Dev Cert.KernelIdeal.nD) :
    end_cnt m c = Cert.ReferenceIdeal.Read.val_main_v10 (F := Ideal) (m ((c.tc : Thread Cert.KernelIdeal.nD Cert.KernelIdeal.τ).loc Cert.KernelIdeal.main_arg1)) := by
  funext j
  obtain ⟨k, rfl⟩ : ∃ k : Fin 46, j = ix1 k := ⟨j 0, eq_ix1 j⟩
  refine ((end_cnt_at m c k).trans ?_).trans (ref_cnt _ k).symm
  rw [labels_eq]

end Cert.Proof.SameSums

end
-- ==== Proof.lean ====
/-
  An F1 loss over a per-class confusion matrix: 2,000,000 rows, 46 classes.

  Both programs compute, for every class, the column sum of the predictions, the sum of the predictions over the rows
  carrying that class's label, and the number of such rows; and from these three vectors the same loss, by the same
  operations on the same float words. The kernel takes the three sums in 100 blocks of 20,000 rows, adding each block's
  contribution to vectors it zeroes at the first block; the reference sums all rows at once. Over the extended reals the two
  agree because regrouping a finite sum changes nothing (addition is commutative and associative there, infinite
  summands included), so the finiteness of the inputs is never used.

  Proof/ClassSums.lean    the three sums and the regrouping law
  Proof/LossTail.lean     the loss as one function of the three sums
  Proof/BodyLeaves.lean   what one run of the kernel body leaves in the three vectors
  Proof/BlockTerms.lean   a block's contribution, read at a class
  Proof/BlockReads.lean   what the input windows hold at a grid point
  Proof/RunningSums.lean  the running sums, one point at a time
  Proof/SumsAfter.lean    the three vectors after every point, by induction on the point
  Proof/AfterKernel.lean  the operations after the kernel, over any buffer contents
  Proof/FinalVectors.lean the kernel's three result arrays after the run
  Proof/KernelResult.lean the kernel's result
  Proof/RefSums.lean      the reference's three sums and its result
  Proof/SameSums.lean     the two triples of sums are equal
  The kernel's idealization rewrote nothing, so that it preserves the kernel is the empty statement. The frames of the two
  kernel programs are their generated frames; the reference's is its generated run with the result dropped.
-/
import proofs.«134390_j83081847374037_2_alg».proof.Defs
import proofs.«134390_j83081847374037_2_alg».proof.Proof.Gen.Kernel
import proofs.«134390_j83081847374037_2_alg».proof.Proof.Gen.Kernel.Frame
import proofs.«134390_j83081847374037_2_alg».proof.Proof.Gen.KernelIdeal
import proofs.«134390_j83081847374037_2_alg».proof.Proof.Gen.KernelIdeal.Frame
import proofs.«134390_j83081847374037_2_alg».proof.Proof.Gen.ReferenceIdeal
import proofs.«134390_j83081847374037_2_alg».proof.Proof.Gen.ReferenceIdeal.Run
import proofs.«134390_j83081847374037_2_alg».proof.Proof.Gen.ReferenceIdeal.Read
import proofs.«134390_j83081847374037_2_alg».proof.Proof.Gen.Pre_finite_inputs
import proofs.«134390_j83081847374037_2_alg».proof.Proof.SameSums
import Idealize.ShloMosaic.Adequacy
import Idealize.ShloMosaic.Init

noncomputable section

namespace Cert.Proof

open Idealize.ShloMosaic Idealize.ShloMosaic.TcCoe Idealize.SL.Sem
open Cert.ClassSums Cert.KernelIdeal.FinalVectors Cert.Proof.SameSums

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result is the loss of its three final vectors and the reference's the loss of its
    three sums, and from arguments that agree the two triples are equal. -/
theorem algebraic : Cert.algebraic_KernelIdeal_ReferenceIdeal := by
  intro m ρ m' ρ' _ hagree
  refine ⟨fun c => lossTail (F := Ideal) Cert.KernelIdeal.Gen.bcast_S_S46 Cert.KernelIdeal.Gen.reducesTo_S46_S_d0 Cert.KernelIdeal.Gen.h_S_
    (end_col m c) (end_hit m c) (end_cnt m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefSums.ref_loss, (hagree c).1, (hagree c).2,
    ← same_col m c, ← same_hit m c, ← same_cnt m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
